-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S256x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x256 : Shape := ⟨2, ![100000, 256]⟩
abbrev S1x64 : Shape := ⟨2, ![1, 64]⟩
abbrev S5000x256 : Shape := ⟨2, ![5000, 256]⟩
abbrev S5000x64 : Shape := ⟨2, ![5000, 64]⟩

abbrev nBuf : Space → Nat
  | .hbm => 95
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x1, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x256, .f32⟩
  | .hbm, ⟨93, _⟩ => ⟨S1x64, .f32⟩
  | .hbm, ⟨94, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x64_S100000x64_S100000x256_d1 : Shape.Concatenates [S100000x64, S100000x64, S100000x64, S100000x64] S100000x256 1
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v68) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x256 : Shape := ⟨2, ![100000, 256]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x1, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x256, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  concatenates_S100000x64_S100000x64_S100000x64_S100000x64_S100000x256_d1 : Shape.Concatenates [S100000x64, S100000x64, S100000x64, S100000x64] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x256_S256x64_S100000x64_1_0_0_1_n_n_wf : DotDims.WF S100000x256 S256x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.RegionBits.lean ====
/-
  The kernel's program as printed, run: its frame.

  The program is a long line of host operations — slices of the edge list, three rounds of gather, scale and
  scatter-add, the four feature blocks joined side by side, the bias written as a one-row matrix — followed by ONE
  region: a grid of 20 points, point `t` taking rows `5000·t … 5000·t + 4999` of the joined `[100000, 256]`
  features, the whole `[256, 64]` weight and the `[1, 64]` bias, and storing one `[5000, 64]` block of the result.

  This module says what the region is entered with (the buffers after the host line), what one point's body leaves
  in the output block (the body's one store, covering the block, of a value computed from the three loaded blocks),
  that the body runs without fault on whole staging buffers, and from these — by the pipeline's frame theorem —
  that every weakly fair execution of the whole program terminates with the result array assembled from the
  blocks the points wrote and every argument array as launched. Nothing here depends on the float instance.
-/
import proofs.«149920_j56908316672631_1_alg».proof.Proof.Gen.Kernel.Launch
import proofs.«149920_j56908316672631_1_alg».proof.Proof.Gen.Kernel.Skeleton
import proofs.«149920_j56908316672631_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three stretches of host operations, from the launch contents `m`. -/
def V (c : Dev nD) (b : Ref sig .tc) : Buf (Elt F) ((c : Thread nD τ).loc b) :=
  StableHlo.after (List.flatten [hostOps0, hostOps0_1, hostOps0_2]) (fun b => m (c, b)) b

theorem V_eq (c : Dev nD) (b : Ref sig .tc) :
    V m c b = StableHlo.after (List.flatten [hostOps0, hostOps0_1, hostOps0_2]) (fun b => m (c, b)) b := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program is its host operations, then the region: holding the unscoped buffers at the launch contents, it
    reduces to the region holding them at `V`. -/
theorem hmain (𝒱₀ : Variants) : Pipeline.HMain (Ix := Unit) (Name := ℕ) (U := UR sig nD τ) (Lvl := ℕ) cfgs 0 defs₀ 𝒱₀ m (main (F := F)) (V m) :=
  show Pipeline.HMain (Ix := Unit) (Name := ℕ) (U := UR sig nD τ) (Lvl := ℕ) cfgs 0 defs₀ 𝒱₀ m (main (F := F))
      (fun c b => StableHlo.after (List.flatten [hostOps0, hostOps0_1, hostOps0_2]) (fun b => m (c, b)) b) from
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem kept_of_not_written (c : Dev nD) (b : Ref sig .tc)
    (h : ∀ op ∈ (List.flatten [hostOps0, hostOps0_1, hostOps0_2] : List (HloOp τ sig (Elt F))), Proc.devRef .tc b ∉ op.writes) :
    V m c b = m ((c : Thread nD τ).loc b) :=
  (V_eq m c b).trans (StableHlo.after_of_forall_not_mem (b := Proc.devRef .tc b) _ _ h)

set_option maxHeartbeats 4000000 in
theorem V_main_arg0 (c : Dev nD) : V m c main_arg0 = m ((c : Thread nD τ).loc main_arg0) :=
  kept_of_not_written m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  kept_of_not_written m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  kept_of_not_written m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  kept_of_not_written m c main_arg3 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## One point's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or the block index has not moved since the point that did (the features' window moves at every point; the
    weight's and the bias's never move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rF : Rect S5000x256 := Rect.unit (s := S5000x256) ![0, 0] S5000x256.size inb_S5000x256_S5000x256_0_0
abbrev rW : Rect S256x64 := Rect.unit (s := S256x64) ![0, 0] S256x64.size inb_S256x64_S256x64_0_0
abbrev rB : Rect S1x64 := Rect.unit (s := S1x64) ![0, 0] S1x64.size inb_S1x64_S1x64_0_0
abbrev rO : Rect S5000x64 := Rect.unit (s := S5000x64) ![0, 0] S5000x64.size inb_S5000x64_S5000x64_0_0

/-- The output block after the body: its one store, through the whole block, of the payload computed from the three
    loaded blocks (each loaded whole). -/
def out0_3 (x0 : Vec F S5000x256 .f32) (x1 : Vec F S256x64 .f32) (x2 : Vec F S1x64 .f32) : Vec F S5000x64 .f32 :=
  View.canon [⟨rO, k0_pay1 (View.ld x0 rF) (View.ld x1 rW) (View.ld x2 rB)⟩]

/-- The one store covers the block. -/
theorem cover0_3 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

/-! ## The body's triple -/

set_option maxHeartbeats 4000000 in
/-- The body on whole staging buffers — the three inputs at contents `x0`, `x1`, `x2`, the output at anything — runs
    to its continuation with the inputs as they were and the output at `out0_3 x0 x1 x2`. (The body also loads the
    output buffer before it stores; the loaded value is not used.) -/
theorem sound_kernel (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tagconv_linear_kernel i arg1 harg1 arg2 harg2 arg3 harg3 arg4 harg4) K := by
  simp only [cc0__tagconv_linear_kernel_eq_skeleton]; unfold cc0__tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its block and
    the output's at `out0_3` of the three input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every array of the pipeline at what
    the pipeline's write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result and the arguments: the result array is what the write-backs assemble
    (`arrAt 3 N`); `x`, the edge list and the bias are not staged and are as the region found them, which is as
    launched; the weight is staged by an input window that never writes back. -/
theorem run_arrays : θ_run defs (onTc (τ := τ) (main (F := F))) ⟨m, fun _ => 0, ρ⟩ (fun r => ∀ c : Dev nD,
      r.2.mem ((c.tc : Thread nD τ).loc main_v70) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

/-- The frame: the program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.Kernel.Region

end
-- ==== Proof.RegionIdeal.lean ====
/-
  The idealized kernel's program, run: its frame, and its result array named.

  The program is a long line of host operations — slices of the edge list, three rounds of gather, scale and
  scatter-add, the four feature blocks joined side by side, the bias written as a one-row matrix — followed by ONE
  region: a grid of 20 points, point `t` taking rows `5000·t … 5000·t + 4999` of the joined `[100000, 256]`
  features, the whole `[256, 64]` weight and the `[1, 64]` bias, and storing one `[5000, 64]` block of the result.

  This module says what the region is entered with (the buffers after the host line), what one point's body leaves
  in the output block (the body's one store, covering the block, of a value computed from the three loaded blocks),
  that the body runs without fault on whole staging buffers, and from these — by the pipeline's frame theorem —
  that every weakly fair execution of the whole program terminates with the result array assembled from the
  blocks the points wrote and every argument array as launched. Nothing here depends on the float instance.
-/
import proofs.«149920_j56908316672631_1_alg».proof.Proof.Gen.KernelIdeal.Launch
import proofs.«149920_j56908316672631_1_alg».proof.Proof.Gen.KernelIdeal.Skeleton
import proofs.«149920_j56908316672631_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the three stretches of host operations, from the launch contents `m`. -/
def V (c : Dev nD) (b : Ref sig .tc) : Buf (Elt F) ((c : Thread nD τ).loc b) :=
  StableHlo.after (List.flatten [hostOps0, hostOps0_1, hostOps0_2]) (fun b => m (c, b)) b

theorem V_eq (c : Dev nD) (b : Ref sig .tc) :
    V m c b = StableHlo.after (List.flatten [hostOps0, hostOps0_1, hostOps0_2]) (fun b => m (c, b)) b := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program is its host operations, then the region: holding the unscoped buffers at the launch contents, it
    reduces to the region holding them at `V`. -/
theorem hmain (𝒱₀ : Variants) : Pipeline.HMain (Ix := Unit) (Name := ℕ) (U := UR sig nD τ) (Lvl := ℕ) cfgs 0 defs₀ 𝒱₀ m (main (F := F)) (V m) :=
  show Pipeline.HMain (Ix := Unit) (Name := ℕ) (U := UR sig nD τ) (Lvl := ℕ) cfgs 0 defs₀ 𝒱₀ m (main (F := F))
      (fun c b => StableHlo.after (List.flatten [hostOps0, hostOps0_1, hostOps0_2]) (fun b => m (c, b)) b) from
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the region finds each as launched. -/
theorem kept_of_not_written (c : Dev nD) (b : Ref sig .tc)
    (h : ∀ op ∈ (List.flatten [hostOps0, hostOps0_1, hostOps0_2] : List (HloOp τ sig (Elt F))), Proc.devRef .tc b ∉ op.writes) :
    V m c b = m ((c : Thread nD τ).loc b) :=
  (V_eq m c b).trans (StableHlo.after_of_forall_not_mem (b := Proc.devRef .tc b) _ _ h)

set_option maxHeartbeats 4000000 in
theorem V_main_arg0 (c : Dev nD) : V m c main_arg0 = m ((c : Thread nD τ).loc main_arg0) :=
  kept_of_not_written m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg1 (c : Dev nD) : V m c main_arg1 = m ((c : Thread nD τ).loc main_arg1) :=
  kept_of_not_written m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg2 (c : Dev nD) : V m c main_arg2 = m ((c : Thread nD τ).loc main_arg2) :=
  kept_of_not_written m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
theorem V_main_arg3 (c : Dev nD) : V m c main_arg3 = m ((c : Thread nD τ).loc main_arg3) :=
  kept_of_not_written m c main_arg3 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## One point's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or the block index has not moved since the point that did (the features' window moves at every point; the
    weight's and the bias's never move). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rF : Rect S5000x256 := Rect.unit (s := S5000x256) ![0, 0] S5000x256.size inb_S5000x256_S5000x256_0_0
abbrev rW : Rect S256x64 := Rect.unit (s := S256x64) ![0, 0] S256x64.size inb_S256x64_S256x64_0_0
abbrev rB : Rect S1x64 := Rect.unit (s := S1x64) ![0, 0] S1x64.size inb_S1x64_S1x64_0_0
abbrev rO : Rect S5000x64 := Rect.unit (s := S5000x64) ![0, 0] S5000x64.size inb_S5000x64_S5000x64_0_0

/-- The output block after the body: its one store, through the whole block, of the payload computed from the three
    loaded blocks (each loaded whole). -/
def out0_3 (x0 : Vec F S5000x256 .f32) (x1 : Vec F S256x64 .f32) (x2 : Vec F S1x64 .f32) : Vec F S5000x64 .f32 :=
  View.canon [⟨rO, k0_pay1 (View.ld x0 rF) (View.ld x1 rW) (View.ld x2 rB)⟩]

/-- The one store covers the block. -/
theorem cover0_3 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

/-! ## The body's triple -/

set_option maxHeartbeats 4000000 in
/-- The body on whole staging buffers — the three inputs at contents `x0`, `x1`, `x2`, the output at anything — runs
    to its continuation with the inputs as they were and the output at `out0_3 x0 x1 x2`. (The body also loads the
    output buffer before it stores; the loaded value is not used.) -/
theorem sound_kernel (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tagconv_linear_kernel i arg1 harg1 arg2 harg2 arg3 harg3 arg4 harg4) K := by
  simp only [cc0__tagconv_linear_kernel_eq_skeleton]; unfold cc0__tagconv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its block and
    the output's at `out0_3` of the three input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, nothing faulting, with every array of the pipeline at what
    the pipeline's write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result and the arguments: the result array is what the write-backs assemble
    (`arrAt 3 N`); `x`, the edge list and the bias are not staged and are as the region found them, which is as
    launched; the weight is staged by an input window that never writes back. -/
theorem run_arrays : θ_run defs (onTc (τ := τ) (main (F := F))) ⟨m, fun _ => 0, ρ⟩ (fun r => ∀ c : Dev nD,
      r.2.mem ((c.tc : Thread nD τ).loc main_v70) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

/-- The frame: the program runs to the end, faults nowhere, and leaves its four arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_arrays m ρ)

end Cert.KernelIdeal.Region

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Dense.lean ====
/-
  The function both programs compute from the joined feature array: every row of a `[100000, 256]` array `X`
  times a `[256, 64]` weight `w`, plus a length-64 bias `b`,

      out (e, q) = (∑ k < 256, X (e, k) · w (k, q)) + b q,

  on the extended reals. The sum and the product are the exact ones, so no order or grouping of the sum matters and
  no finiteness is needed to compare two programs that both compute it.
-/
import proofs.«149920_j56908316672631_1_alg».proof.Proof.LibDense

noncomputable section

namespace Cert.Linear

open Idealize.ShloMosaic Idealize.ShloMosaic.ValueIdx

/-- Rows of `X` times `w`, plus `b` along every row. -/
def rowsTimesPlus (X : FVec Ideal ⟨2, ![100000, 256]⟩ .f32) (w : FVec Ideal ⟨2, ![256, 64]⟩ .f32) (b : FVec Ideal ⟨1, ![64]⟩ .f32) :
    FVec Ideal ⟨2, ![100000, 64]⟩ .f32 :=
  fun i => (∑ k : Fin 256, X (ix2 (i 0) k) * w (ix2 k (i 1))) + b (ix1 (i 1))

theorem rowsTimesPlus_apply (X : FVec Ideal ⟨2, ![100000, 256]⟩ .f32) (w : FVec Ideal ⟨2, ![256, 64]⟩ .f32) (b : FVec Ideal ⟨1, ![64]⟩ .f32)
    (e : Fin 100000) (q : Fin 64) :
    rowsTimesPlus X w b (ix2 e q) = (∑ k : Fin 256, X (ix2 e k) * w (ix2 k q)) + b (ix1 q) := rfl

/-- The one row of a `[1, 64]` matrix, as a vector. -/
def rowOf (B : FVec Ideal ⟨2, ![1, 64]⟩ .f32) : FVec Ideal ⟨1, ![64]⟩ .f32 := fun j => B (ix2 (0 : Fin 1) (j 0))

theorem rowOf_apply (B : FVec Ideal ⟨2, ![1, 64]⟩ .f32) (q : Fin 64) : rowOf B (ix1 q) = B (ix2 (0 : Fin 1) q) := rfl

end Cert.Linear

end
-- ==== Proof.KernelValue.lean ====
/-
  What the idealized kernel's result array holds after the run, as one function of the buffers the region is entered
  with: the rows of the joined feature array times the weight, plus the bias row.

  Point `t` of the grid loads rows `5000·t … 5000·t + 4999` of the features, the whole weight and the one bias row,
  and stores `matmul (features block) (weight) + (bias row repeated)` — rounding the operands to bf16 first, which is
  the identity on the extended reals. Read at `(p, q)` of the block that is `∑ k, X (5000·t + p, k) · w (k, q) + B (0, q)`:
  entry `(5000·t + p, q)` of the whole-array function. The twenty blocks tile the `[100000, 64]` result, row `r` lying in
  block `r / 5000`, so the array ends holding that function everywhere.
-/
import proofs.«149920_j56908316672631_1_alg».proof.Proof.RegionIdeal
import proofs.«149920_j56908316672631_1_alg».proof.Proof.Dense
import Idealize.ShloMosaic.Lib.Pipeline.Value
import Idealize.ShloMosaic.Lib.ValueLayout

set_option maxRecDepth 16384

noncomputable section

namespace Cert.KernelIdeal.Result

open Cert.KernelIdeal Cert.KernelIdeal.Gen Cert.KernelIdeal.Region Cert.Linear
open Idealize.ShloMosaic Idealize.ShloMosaic.TcCoe Idealize.SL.Sem Idealize.ShloMosaic.ValueIdx
open Idealize.ShloMosaic.Pipeline (Dat)

/-! ## The body's stored value at an index -/

theorem dot_l0 (i : S5000x64.Idx) (k : dot_S5000x256_S256x64_S5000x64_1_0_0_1_n_n.contr.Idx) :
    (dot_S5000x256_S256x64_S5000x64_1_0_0_1_n_n.lhsIdx i k 0).val = (i 0).val := by
  simp [DotDims.lhsIdx, dot_S5000x256_S256x64_S5000x64_1_0_0_1_n_n] <;> rfl
theorem dot_l1 (i : S5000x64.Idx) (k : dot_S5000x256_S256x64_S5000x64_1_0_0_1_n_n.contr.Idx) :
    (dot_S5000x256_S256x64_S5000x64_1_0_0_1_n_n.lhsIdx i k 1).val = (k ⟨0, by decide⟩).val := by
  simp [DotDims.lhsIdx, dot_S5000x256_S256x64_S5000x64_1_0_0_1_n_n] <;> rfl
theorem dot_r0 (i : S5000x64.Idx) (k : dot_S5000x256_S256x64_S5000x64_1_0_0_1_n_n.contr.Idx) :
    (dot_S5000x256_S256x64_S5000x64_1_0_0_1_n_n.rhsIdx i k 0).val = (k ⟨0, by decide⟩).val := by
  simp [DotDims.rhsIdx, dot_S5000x256_S256x64_S5000x64_1_0_0_1_n_n] <;> rfl
theorem dot_r1 (i : S5000x64.Idx) (k : dot_S5000x256_S256x64_S5000x64_1_0_0_1_n_n.contr.Idx) :
    (dot_S5000x256_S256x64_S5000x64_1_0_0_1_n_n.rhsIdx i k 1).val = (i 1).val := by
  simp [DotDims.rhsIdx, dot_S5000x256_S256x64_S5000x64_1_0_0_1_n_n] <;> rfl

/-- The stored value at `(p, q)`: row `p` of the features block times column `q` of the weight, plus the bias row at `q`. -/
theorem pay_apply (x0 : Vec Ideal S5000x256 .f32) (x1 : Vec Ideal S256x64 .f32) (x2 : Vec Ideal S1x64 .f32) (p : Fin 5000) (q : Fin 64) :
    k0_pay1 (F := Ideal) x0 x1 x2 (ix2 p q) = (∑ k : Fin 256, x0 (ix2 p k) * x1 (ix2 k q)) + x2 (ix2 (0 : Fin 1) q) := by
  unfold k0_pay1
  refine (addf_apply _ _ _).trans ?_
  refine congrArg₂ (· + ·) ?_ ?_
  · refine (matmul_zero_plain_apply dot_S5000x256_S256x64_S5000x64_1_0_0_1_n_n none rfl rfl dot_l0 dot_l1 dot_r0 dot_r1 _ _ p q).trans ?_
    refine Finset.sum_congr rfl fun k _ => ?_
    refine congrArg₂ (· * ·) ?_ rfl
    exact congrFun (shapeCast_self x0 shapeCasts_S5000x256_S5000x256) (ix2 p k)
  · refine (broadcastTo_1b_ab_apply _ broadcasts_S1x64_S5000x64 p q).trans ?_
    exact congrFun (shapeCast_self x2 shapeCasts_S1x64_S1x64) (ix2 (0 : Fin 1) q)

/-! ## The windows' blocks, read off the arrays -/

variable (m : (ℓ : Loc nD τ sig) → Buf (Elt Ideal) ℓ) (ρ : Dev nD → PrngReg)

/-- The printed index maps over the grid: the features' and the result's block index is the point, the weight's and
    the bias's is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block, as a row of the whole array. -/
def rowAt (t : Fin cfg0.N) (p : Fin 5000) : Fin 100000 :=
  ⟨t.val * 5000 + p.val, by have := t.isLt; have := p.isLt; have : cfg0.N = 20 := N_0; omega⟩

theorem emb0 (t : Fin cfg0.N) (p : Fin 5000) (k : Fin 256) :
    ((cfg0.win 0).blk t).view.emb (ix2 p k) = ix2 (rowAt t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega

theorem emb1 (t : Fin cfg0.N) (k : Fin 256) (q : Fin 64) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 256 + 1 * k.val = k.val; omega
  | ⟨1, _⟩ => show win0_1.index t (1 : Fin 2) * 64 + 1 * q.val = q.val; omega

theorem emb2 (t : Fin cfg0.N) (q : Fin 64) :
    ((cfg0.win 2).blk t).view.emb (ix2 (0 : Fin 1) q) = ix2 (0 : Fin 1) q := by
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 64 + 1 * q.val = q.val; omega

theorem emb3 (t : Fin cfg0.N) (p : Fin 5000) (q : Fin 64) :
    ((cfg0.win 3).blk t).view.emb (ix2 p q) = ix2 (rowAt t p) q := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

/-! ## What a point writes back -/

theorem hz : (![0, 0] : Fin 2 → Nat) = fun _ => 0 := funext fun a => by fin_cases a <;> rfl

set_option maxHeartbeats 2000000 in
/-- Point `t` writes back block `t` of the whole-array function of the entry buffers. -/
theorem flushed3_eq (c : Dev nD) (t : Fin cfg0.N) :
    (dats m 0 c).flushed 3 t = ((cfg0.win 3).blk t).view.read (Elt Ideal)
      (rowsTimesPlus (V m c main_v68) (V m c main_arg2) (rowOf (V m c main_v69))) := by
  show (cfg0.win 3).cut (grid0.coords t) ((dats m 0 c).after 3 t) = _
  rw [after0_3]
  unfold out0_3
  rw [View.canon_unit_zero hz]
  simp only [View.ld_unit_zero (S := S5000x256) hz, View.ld_unit_zero (S := S256x64) hz, View.ld_unit_zero (S := S1x64) hz]
  funext j
  obtain ⟨p, q, rfl⟩ : ∃ (p : Fin 5000) (q : Fin 64), j = ix2 p q := ⟨j 0, j 1, eq_ix2 j⟩
  show k0_pay1 (F := Ideal) (iblk m c 0 t) (iblk m c 1 t) (iblk m c 2 t) (ix2 p q)
    = rowsTimesPlus (V m c main_v68) (V m c main_arg2) (rowOf (V m c main_v69)) (((cfg0.win 3).blk t).view.emb (ix2 p q))
  refine (pay_apply _ _ _ p q).trans ?_
  rw [emb3, rowsTimesPlus_apply, rowOf_apply]
  refine congrArg₂ (· + ·) (Finset.sum_congr rfl fun k _ => congrArg₂ (· * ·) ?_ ?_) ?_
  · show V m c main_v68 (((cfg0.win 0).blk t).view.emb (ix2 p k)) = _
    rw [emb0]
  · show V m c main_arg2 (((cfg0.win 1).blk t).view.emb (ix2 k q)) = _
    rw [emb1]
  · show V m c main_v69 (((cfg0.win 2).blk t).view.emb (ix2 (0 : Fin 1) q)) = _
    rw [emb2]

/-! ## The blocks tile the result -/

theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v70).slice (win0_3.rect t)).set ↔ _
  rw [View.set_slice_whole, Rect.mem_set_unit]
  exact Iff.rfl

/-- Row `r` of the result lies in the block of point `r / 5000`. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by omega⟩
  have ht : t.val = (i 0).val / 5000 := rfl
  obtain ⟨-, -, -, -, -, -, e6, e7⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the run: rows of the entry features times the entry weight, plus the entry bias row. -/
theorem final3 (c : Dev nD) :
    (dats m 0 c).arrAt 3 cfg0.N = rowsTimesPlus (V m c main_v68) (V m c main_arg2) (rowOf (V m c main_v69)) :=
  (dats m 0 c).arrAt_eq_of_cover 3 _ (fun t _ => flushed3_eq m c t) cover3

end Cert.KernelIdeal.Result

end
-- ==== Proof.RefRun.lean ====
/-
  The reference program, run. It is one straight line of 93 host operations: the first 89 build the joined
  `[100000, 256]` feature array from `x` and the edge list (three rounds of gather, scale, scatter-add, then the four
  blocks side by side); the last four multiply it by the weight, write the bias as a one-row matrix, repeat that row
  down every row, and add. Every weakly fair execution terminates with each buffer at the operations' results folded
  over the launch contents (`StableHlo.run_seq`). The fold is split where the feature array is complete: the four
  closing operations are read off explicitly, over whatever the first 89 left.
-/
import proofs.«149920_j56908316672631_1_alg».proof.Proof.Gen.ReferenceIdeal
import Idealize.ShloMosaic.Lib.StableHlo.Run
import Idealize.ShloMosaic.Lib.Pipeline.Frame

noncomputable section

namespace Cert.ReferenceIdeal.Hosted

open Cert.ReferenceIdeal Cert.ReferenceIdeal.Gen Idealize.ShloMosaic Idealize.ShloMosaic.TcCoe Idealize.SL.Sem Idealize.ShloMosaic.StableHlo

variable {F : FTy → Type} [FloatOps F]

/-- The operations that build the feature array, in order (the outlined `where` stands as its three operations). -/
abbrev opsPre : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v7 main_v10 main_v11 (maximumf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v9 : StableHlo.TRef sig ⟨S100000, .i1⟩) (.of main_v12 : StableHlo.TRef sig ⟨S100000, .f32⟩) (.of main_call0_v1 : StableHlo.TRef sig ⟨S100000, .f32⟩) (.of main_v13 : StableHlo.TRef sig ⟨S100000, .f32⟩) select,
    StableHlo.nullary main_c (constantI S_ 32 0#32),
    StableHlo.unary main_c main_v14 (broadcastInDim S1600000 ![] bcast_S_S1600000 : (⟨S_, .i32⟩ : BufTy).Contents (Elt F) → (⟨S1600000, .i32⟩ : BufTy).Contents (Elt F)),
    StableHlo.binary main_v1 main_v14 main_v15 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v16 (broadcastInDim S1600000 ![] bcast_S_S1600000 : (⟨S_, .i32⟩ : BufTy).Contents (Elt F) → (⟨S1600000, .i32⟩ : BufTy).Contents (Elt F)),
    StableHlo.binary main_v1 main_v16 main_v17 (addi : (⟨S1600000, .i32⟩ : BufTy).Contents (Elt F) → (⟨S1600000, .i32⟩ : BufTy).Contents (Elt F) → (⟨S1600000, .i32⟩ : BufTy).Contents (Elt F)),
    StableHlo.ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v18 main_v19 (broadcastInDim S1600000x1 ![0] bcast_S1600000_S1600000x1_0 : (⟨S1600000, .i32⟩ : BufTy).Contents (Elt F) → (⟨S1600000x1, .i32⟩ : BufTy).Contents (Elt F)),
    StableHlo.binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v21 (broadcastInDim S1600000 ![] bcast_S_S1600000 : (⟨S_, .i32⟩ : BufTy).Contents (Elt F) → (⟨S1600000, .i32⟩ : BufTy).Contents (Elt F)),
    StableHlo.binary main_v3 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v23 (broadcastInDim S1600000 ![] bcast_S_S1600000 : (⟨S_, .i32⟩ : BufTy).Contents (Elt F) → (⟨S1600000, .i32⟩ : BufTy).Contents (Elt F)),
    StableHlo.binary main_v3 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v3 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v13 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v20 main_v27 main_v28 (mulf : (⟨S1600000, .f32⟩ : BufTy).Contents (Elt F) → (⟨S1600000, .f32⟩ : BufTy).Contents (Elt F) → (⟨S1600000, .f32⟩ : BufTy).Contents (Elt F)),
    StableHlo.nullary main_c_7 (constantI S_ 32 0#32),
    StableHlo.unary main_c_7 main_v29 (broadcastInDim S1600000 ![] bcast_S_S1600000 : (⟨S_, .i32⟩ : BufTy).Contents (Elt F) → (⟨S1600000, .i32⟩ : BufTy).Contents (Elt F)),
    StableHlo.binary main_v1 main_v29 main_v30 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v31 (broadcastInDim S1600000 ![] bcast_S_S1600000 : (⟨S_, .i32⟩ : BufTy).Contents (Elt F) → (⟨S1600000, .i32⟩ : BufTy).Contents (Elt F)),
    StableHlo.binary main_v1 main_v31 main_v32 (addi : (⟨S1600000, .i32⟩ : BufTy).Contents (Elt F) → (⟨S1600000, .i32⟩ : BufTy).Contents (Elt F) → (⟨S1600000, .i32⟩ : BufTy).Contents (Elt F)),
    StableHlo.ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v33 main_v34 (broadcastInDim S1600000x1 ![0] bcast_S1600000_S1600000x1_0 : (⟨S1600000, .i32⟩ : BufTy).Contents (Elt F) → (⟨S1600000x1, .i32⟩ : BufTy).Contents (Elt F)),
    StableHlo.binary main_arg0 main_v34 main_v35 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v28 main_v36 (broadcastInDim S1600000x1 ![0] bcast_S1600000_S1600000x1_0 : (⟨S1600000, .f32⟩ : BufTy).Contents (Elt F) → (⟨S1600000x1, .f32⟩ : BufTy).Contents (Elt F)),
    StableHlo.unary main_v36 main_v37 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v35 main_v37 main_v38 (mulf : (⟨S1600000x64, .f32⟩ : BufTy).Contents (Elt F) → (⟨S1600000x64, .f32⟩ : BufTy).Contents (Elt F) → (⟨S1600000x64, .f32⟩ : BufTy).Contents (Elt F)),
    StableHlo.nullary main_cst_9 (constant S_ .f32 0x00000000#32),
    StableHlo.unary main_cst_9 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_c_10 (constantI S_ 32 0#32),
    StableHlo.unary main_c_10 main_v42 (broadcastInDim S1600000 ![] bcast_S_S1600000 : (⟨S_, .i32⟩ : BufTy).Contents (Elt F) → (⟨S1600000, .i32⟩ : BufTy).Contents (Elt F)),
    StableHlo.binary main_v1 main_v42 main_v43 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v44 (broadcastInDim S1600000 ![] bcast_S_S1600000 : (⟨S_, .i32⟩ : BufTy).Contents (Elt F) → (⟨S1600000, .i32⟩ : BufTy).Contents (Elt F)),
    StableHlo.binary main_v1 main_v44 main_v45 (addi : (⟨S1600000, .i32⟩ : BufTy).Contents (Elt F) → (⟨S1600000, .i32⟩ : BufTy).Contents (Elt F) → (⟨S1600000, .i32⟩ : BufTy).Contents (Elt F)),
    StableHlo.ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v46 main_v47 (broadcastInDim S1600000x1 ![0] bcast_S1600000_S1600000x1_0 : (⟨S1600000, .i32⟩ : BufTy).Contents (Elt F) → (⟨S1600000x1, .i32⟩ : BufTy).Contents (Elt F)),
    StableHlo.binary main_v41 main_v47 main_v48 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v28 main_v49 (broadcastInDim S1600000x1 ![0] bcast_S1600000_S1600000x1_0 : (⟨S1600000, .f32⟩ : BufTy).Contents (Elt F) → (⟨S1600000x1, .f32⟩ : BufTy).Contents (Elt F)),
    StableHlo.unary main_v49 main_v50 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v48 main_v50 main_v51 (mulf : (⟨S1600000x64, .f32⟩ : BufTy).Contents (Elt F) → (⟨S1600000x64, .f32⟩ : BufTy).Contents (Elt F) → (⟨S1600000x64, .f32⟩ : BufTy).Contents (Elt F)),
    StableHlo.nullary main_cst_12 (constant S_ .f32 0x00000000#32),
    StableHlo.unary main_cst_12 main_v52 (broadcastInDim S100000x64 ![] bcast_S_S100000x64 : (⟨S_, .f32⟩ : BufTy).Contents (Elt F) → (⟨S100000x64, .f32⟩ : BufTy).Contents (Elt F)),
    StableHlo.unary main_v3 main_v53 (broadcastInDim S1600000x1 ![0] bcast_S1600000_S1600000x1_0 : (⟨S1600000, .i32⟩ : BufTy).Contents (Elt F) → (⟨S1600000x1, .i32⟩ : BufTy).Contents (Elt F)),
    StableHlo.ternary main_v52 main_v53 main_v51 main_v54 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_c_13 (constantI S_ 32 0#32),
    StableHlo.unary main_c_13 main_v55 (broadcastInDim S1600000 ![] bcast_S_S1600000 : (⟨S_, .i32⟩ : BufTy).Contents (Elt F) → (⟨S1600000, .i32⟩ : BufTy).Contents (Elt F)),
    StableHlo.binary main_v1 main_v55 main_v56 (cmpi .slt : (⟨S1600000, .i32⟩ : BufTy).Contents (Elt F) → (⟨S1600000, .i32⟩ : BufTy).Contents (Elt F) → (⟨S1600000, .i1⟩ : BufTy).Contents (Elt F)),
    StableHlo.nullary main_c_14 (constantI S_ 32 100000#32),
    StableHlo.unary main_c_14 main_v57 (broadcastInDim S1600000 ![] bcast_S_S1600000 : (⟨S_, .i32⟩ : BufTy).Contents (Elt F) → (⟨S1600000, .i32⟩ : BufTy).Contents (Elt F)),
    StableHlo.binary main_v1 main_v57 main_v58 (addi : (⟨S1600000, .i32⟩ : BufTy).Contents (Elt F) → (⟨S1600000, .i32⟩ : BufTy).Contents (Elt F) → (⟨S1600000, .i32⟩ : BufTy).Contents (Elt F)),
    StableHlo.ternary main_v56 main_v58 main_v1 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v59 main_v60 (broadcastInDim S1600000x1 ![0] bcast_S1600000_S1600000x1_0 : (⟨S1600000, .i32⟩ : BufTy).Contents (Elt F) → (⟨S1600000x1, .i32⟩ : BufTy).Contents (Elt F)),
    StableHlo.binary main_v54 main_v60 main_v61 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v28 main_v62 (broadcastInDim S1600000x1 ![0] bcast_S1600000_S1600000x1_0 : (⟨S1600000, .f32⟩ : BufTy).Contents (Elt F) → (⟨S1600000x1, .f32⟩ : BufTy).Contents (Elt F)),
    StableHlo.unary main_v62 main_v63 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v61 main_v63 main_v64 (mulf : (⟨S1600000x64, .f32⟩ : BufTy).Contents (Elt F) → (⟨S1600000x64, .f32⟩ : BufTy).Contents (Elt F) → (⟨S1600000x64, .f32⟩ : BufTy).Contents (Elt F)),
    StableHlo.nullary main_cst_15 (constant S_ .f32 0x00000000#32),
    StableHlo.unary main_cst_15 main_v65 (broadcastInDim S100000x64 ![] bcast_S_S100000x64 : (⟨S_, .f32⟩ : BufTy).Contents (Elt F) → (⟨S100000x64, .f32⟩ : BufTy).Contents (Elt F)),
    StableHlo.unary main_v3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nary ![main_arg0, main_v41, main_v54, main_v67] main_v68 (fun u => concatenate S100000x256 1 [⟨S100000x64, u 0⟩, ⟨S100000x64, u 1⟩, ⟨S100000x64, u 2⟩, ⟨S100000x64, u 3⟩] concatenates_S100000x64_S100000x64_S100000x64_S100000x64_S100000x256_d1) ]

/-- The four closing operations: the product with the weight, the bias as a row, the row repeated, the sum. -/
abbrev opsTail : List (HloOp τ sig (Elt F)) :=
  [ StableHlo.binary main_v68 main_arg2 main_v69 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg3 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v69 main_v71 main_v72 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq (opsPre ++ opsTail) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsPre_sub : (opsPre : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nary_bufs_sub ..⟩
theorem opsTail_sub : (opsTail : List (HloOp τ sig (Elt F))).Forall fun op => op.bufs ⊆ tcRefs τ sig :=
  ⟨StableHlo.binary_bufs_sub .., StableHlo.unary_bufs_sub .., StableHlo.unary_bufs_sub .., StableHlo.binary_bufs_sub ..⟩
theorem ops_sub : (opsPre ++ opsTail : List (HloOp τ sig (Elt F))).Forall fun op => op.bufs ⊆ tcRefs τ sig :=
  List.forall_iff_forall_mem.mpr fun op h => (List.mem_append.mp h).elim
    (List.forall_iff_forall_mem.mp opsPre_sub op) (List.forall_iff_forall_mem.mp opsTail_sub op)

set_option maxRecDepth 8192 in
set_option maxHeartbeats 4000000 in
theorem opsPre_fresh : ∀ op ∈ (opsPre : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

/-- Every weakly fair execution of the reference terminates with every buffer at the closing operations' results over
    what the first stretch left of the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsPre (launchContents m c)) (Proc.devRef .tc b) :=
  (θ_run defs _ _).mono (fun _ h c b => (h c b).trans (by rw [after_append]))
    (run_seq scopedRefs_eq scopedSems_eq defs main (fun _ => opsPre ++ opsTail) main_eq (fun _ => ops_sub) m ρ
      (fun _ op h => (List.mem_append.mp h).elim (opsPre_fresh op) (opsTail_fresh op)))

/-- The closing operations, read: the result is the product of the feature array with the weight plus the bias row
    repeated; they write no argument. -/
theorem tail_result (W : Valuation τ sig (Elt F)) :
    after opsTail W (Proc.devRef .tc main_v72)
      = addf (Host.dotGeneral dot_S100000x256_S256x64_S100000x64_1_0_0_1_n_n none (W (Proc.devRef .tc main_v68)) (W (Proc.devRef .tc main_arg2)))
          (broadcastInDim S100000x64 ![0, 1] bcast_S1x64_S100000x64_0_1 (broadcastInDim S1x64 ![1] bcast_S64_S1x64_1 (W (Proc.devRef .tc main_arg3)))) := by
  after_results
theorem tail_arg0 (W : Valuation τ sig (Elt F)) : after opsTail W (Proc.devRef .tc main_arg0) = W (Proc.devRef .tc main_arg0) := by after_results
theorem tail_arg1 (W : Valuation τ sig (Elt F)) : after opsTail W (Proc.devRef .tc main_arg1) = W (Proc.devRef .tc main_arg1) := by after_results
theorem tail_arg2 (W : Valuation τ sig (Elt F)) : after opsTail W (Proc.devRef .tc main_arg2) = W (Proc.devRef .tc main_arg2) := by after_results
theorem tail_arg3 (W : Valuation τ sig (Elt F)) : after opsTail W (Proc.devRef .tc main_arg3) = W (Proc.devRef .tc main_arg3) := by after_results

/-- The first stretch writes no argument array. -/
theorem pre_kept (W : Valuation τ sig (Elt F)) (b : Ref sig .tc)
    (hb : b = main_arg0 ∨ b = main_arg1 ∨ b = main_arg2 ∨ b = main_arg3) :
    after opsPre W (Proc.devRef .tc b) = W (Proc.devRef .tc b) :=
  after_of_forall_not_mem (b := Proc.devRef .tc b) _ _ (List.forall_iff_forall_mem.mp (by
    simp only [opsPre, List.Forall, nullary_writes, unary_writes, binary_writes, ternary_writes, reshape_writes, nary_writes,
      Finset.mem_singleton]
    rcases hb with rfl | rfl | rfl | rfl <;>
    · repeat' apply And.intro
      all_goals exact devRef_ne_of_ne (by decide)))

end Cert.ReferenceIdeal.Hosted

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.RefValue.lean ====
/-
  The reference's four closing operations, read at an index: the host product of the joined feature array with the
  weight is, at `(e, q)`, the sum over `k` of `X (e, k) · w (k, q)`; the bias written as a one-row matrix and that row
  repeated down all 100000 rows reads, at `(e, q)`, the bias at `q`. So the reference's result is the same
  rows-times-weight-plus-bias function of whatever feature array the earlier operations left.
-/
import proofs.«149920_j56908316672631_1_alg».proof.Proof.RefRun
import proofs.«149920_j56908316672631_1_alg».proof.Proof.Dense
import proofs.«149920_j56908316672631_1_alg».proof.Proof.LibBroadcastInDim

noncomputable section

namespace Cert.ReferenceIdeal.Result

open Cert.ReferenceIdeal Cert.ReferenceIdeal.Gen Cert.ReferenceIdeal.Hosted Cert.Linear
open Idealize.ShloMosaic Idealize.ShloMosaic.TcCoe Idealize.SL.Sem Idealize.ShloMosaic.StableHlo Idealize.ShloMosaic.ValueIdx

theorem dot_l0 (i : S100000x64.Idx) (k : dot_S100000x256_S256x64_S100000x64_1_0_0_1_n_n.contr.Idx) :
    (dot_S100000x256_S256x64_S100000x64_1_0_0_1_n_n.lhsIdx i k 0).val = (i 0).val := by
  simp [DotDims.lhsIdx, dot_S100000x256_S256x64_S100000x64_1_0_0_1_n_n] <;> rfl
theorem dot_l1 (i : S100000x64.Idx) (k : dot_S100000x256_S256x64_S100000x64_1_0_0_1_n_n.contr.Idx) :
    (dot_S100000x256_S256x64_S100000x64_1_0_0_1_n_n.lhsIdx i k 1).val = (k ⟨0, by decide⟩).val := by
  simp [DotDims.lhsIdx, dot_S100000x256_S256x64_S100000x64_1_0_0_1_n_n] <;> rfl
theorem dot_r0 (i : S100000x64.Idx) (k : dot_S100000x256_S256x64_S100000x64_1_0_0_1_n_n.contr.Idx) :
    (dot_S100000x256_S256x64_S100000x64_1_0_0_1_n_n.rhsIdx i k 0).val = (k ⟨0, by decide⟩).val := by
  simp [DotDims.rhsIdx, dot_S100000x256_S256x64_S100000x64_1_0_0_1_n_n] <;> rfl
theorem dot_r1 (i : S100000x64.Idx) (k : dot_S100000x256_S256x64_S100000x64_1_0_0_1_n_n.contr.Idx) :
    (dot_S100000x256_S256x64_S100000x64_1_0_0_1_n_n.rhsIdx i k 1).val = (i 1).val := by
  simp [DotDims.rhsIdx, dot_S100000x256_S256x64_S100000x64_1_0_0_1_n_n] <;> rfl

/-- The product, the bias row repeated, and their sum, at every index: rows times weight plus bias. -/
theorem closing_eq (X : FVec Ideal S100000x256 .f32) (w : FVec Ideal S256x64 .f32) (b : FVec Ideal S64 .f32) :
    addf (Host.dotGeneral (F := Ideal) dot_S100000x256_S256x64_S100000x64_1_0_0_1_n_n none X w)
        (broadcastInDim S100000x64 ![0, 1] bcast_S1x64_S100000x64_0_1 (broadcastInDim S1x64 ![1] bcast_S64_S1x64_1 b))
      = rowsTimesPlus X w b := by
  funext i
  obtain ⟨e, q, rfl⟩ : ∃ (e : Fin 100000) (q : Fin 64), i = ix2 e q := ⟨i 0, i 1, eq_ix2 i⟩
  rw [rowsTimesPlus_apply]
  refine (addf_apply _ _ _).trans ?_
  refine congrArg₂ (· + ·) ?_ ?_
  · exact dotGeneral_plain_apply dot_S100000x256_S256x64_S100000x64_1_0_0_1_n_n none .single rfl rfl dot_l0 dot_l1 dot_r0 dot_r1 X w e q
  · refine (broadcastInDim_1b_ab_apply bcast_S1x64_S100000x64_0_1 _ e q).trans ?_
    exact broadcastInDim_b_1b_apply bcast_S64_S1x64_1 b (0 : Fin 1) q

/-- The reference's result buffer after the closing operations, over whatever the earlier ones left. -/
theorem result_eq (W : Valuation τ sig (Elt Ideal)) :
    after opsTail W (Proc.devRef .tc main_v72)
      = rowsTimesPlus (W (Proc.devRef .tc main_v68)) (W (Proc.devRef .tc main_arg2)) (W (Proc.devRef .tc main_arg3)) :=
  (tail_result W).trans (closing_eq _ _ _)

end Cert.ReferenceIdeal.Result

end
-- ==== Proof.Prelude.lean ====
/-
  The two programs build the joined feature array by the same host operations, in the same order, from `x` and the edge
  list alone: the edge list's two rows, the in-degree by scatter-add of ones, its inverse square root where positive,
  the per-edge weight as a product of two gathers, and three rounds of gather, scale, scatter-add, the four blocks
  then set side by side. Folding either program's operations over any buffer contents gives ONE function `T` of the
  contents of `x` and of the edge list (`features_common`); nothing else is read. The kernel's program ends its host line
  by writing the bias as a one-row matrix (`bias_entry`).
-/
import proofs.«149920_j56908316672631_1_alg».proof.Proof.RegionIdeal
import proofs.«149920_j56908316672631_1_alg».proof.Proof.RefRun
import Idealize.ShloMosaic.PureOps.Ideal

noncomputable section

namespace Cert.Features

open Idealize.ShloMosaic Idealize.ShloMosaic.TcCoe Idealize.SL.Sem Idealize.ShloMosaic.StableHlo

/-- Four `[100000, 64]` blocks set side by side along the columns. -/
def join4 (a b c d : (⟨Cert.KernelIdeal.S100000x64, .f32⟩ : BufTy).Contents (Elt Ideal)) :
    (⟨Cert.KernelIdeal.S100000x256, .f32⟩ : BufTy).Contents (Elt Ideal) :=
  concatenate Cert.KernelIdeal.S100000x256 1 [⟨Cert.KernelIdeal.S100000x64, a⟩, ⟨Cert.KernelIdeal.S100000x64, b⟩,
    ⟨Cert.KernelIdeal.S100000x64, c⟩, ⟨Cert.KernelIdeal.S100000x64, d⟩]
    Cert.KernelIdeal.Gen.concatenates_S100000x64_S100000x64_S100000x64_S100000x64_S100000x256_d1

/-- The joining operation of the kernel's host line leaves the four operands' contents side by side. -/
theorem joined_kernel (F : Valuation Cert.KernelIdeal.τ Cert.KernelIdeal.sig (Elt Ideal))
    (hc : Shape.Concatenates [Cert.KernelIdeal.S100000x64, Cert.KernelIdeal.S100000x64, Cert.KernelIdeal.S100000x64, Cert.KernelIdeal.S100000x64] Cert.KernelIdeal.S100000x256 1) (hxs) (hy) :
    (nary (τ := Cert.KernelIdeal.τ) (Val := Elt Ideal) ![Cert.KernelIdeal.main_arg0, Cert.KernelIdeal.main_v41, Cert.KernelIdeal.main_v54, Cert.KernelIdeal.main_v67] Cert.KernelIdeal.main_v68
        (fun u => concatenate Cert.KernelIdeal.S100000x256 1 [⟨Cert.KernelIdeal.S100000x64, u 0⟩, ⟨Cert.KernelIdeal.S100000x64, u 1⟩, ⟨Cert.KernelIdeal.S100000x64, u 2⟩, ⟨Cert.KernelIdeal.S100000x64, u 3⟩] hc)
        hxs hy).result F (no_index (Proc.devRef .tc Cert.KernelIdeal.main_v68))
      = join4 (F (Proc.devRef .tc Cert.KernelIdeal.main_arg0)) (F (Proc.devRef .tc Cert.KernelIdeal.main_v41))
          (F (Proc.devRef .tc Cert.KernelIdeal.main_v54)) (F (Proc.devRef .tc Cert.KernelIdeal.main_v67)) :=
  nary_result _ _ _ hxs hy F

/-- The joining operation of the reference's host line leaves the four operands' contents side by side. -/
theorem joined_reference (F : Valuation Cert.ReferenceIdeal.τ Cert.ReferenceIdeal.sig (Elt Ideal))
    (hc : Shape.Concatenates [Cert.ReferenceIdeal.S100000x64, Cert.ReferenceIdeal.S100000x64, Cert.ReferenceIdeal.S100000x64, Cert.ReferenceIdeal.S100000x64] Cert.ReferenceIdeal.S100000x256 1) (hxs) (hy) :
    (nary (τ := Cert.ReferenceIdeal.τ) (Val := Elt Ideal) ![Cert.ReferenceIdeal.main_arg0, Cert.ReferenceIdeal.main_v41, Cert.ReferenceIdeal.main_v54, Cert.ReferenceIdeal.main_v67] Cert.ReferenceIdeal.main_v68
        (fun u => concatenate Cert.ReferenceIdeal.S100000x256 1 [⟨Cert.ReferenceIdeal.S100000x64, u 0⟩, ⟨Cert.ReferenceIdeal.S100000x64, u 1⟩, ⟨Cert.ReferenceIdeal.S100000x64, u 2⟩, ⟨Cert.ReferenceIdeal.S100000x64, u 3⟩] hc)
        hxs hy).result F (no_index (Proc.devRef .tc Cert.ReferenceIdeal.main_v68))
      = join4 (F (Proc.devRef .tc Cert.ReferenceIdeal.main_arg0)) (F (Proc.devRef .tc Cert.ReferenceIdeal.main_v41))
          (F (Proc.devRef .tc Cert.ReferenceIdeal.main_v54)) (F (Proc.devRef .tc Cert.ReferenceIdeal.main_v67)) :=
  nary_result _ _ _ hxs hy F

set_option maxRecDepth 8192 in
set_option maxHeartbeats 40000000 in
/-- One function of (`x`, edge list) is the feature array both host lines leave, from any buffer contents. -/
theorem features_common :
    ∃ T : (⟨Cert.KernelIdeal.S100000x64, .f32⟩ : BufTy).Contents (Elt Ideal) → (⟨Cert.KernelIdeal.S2x1600000, .i32⟩ : BufTy).Contents (Elt Ideal)
        → (⟨Cert.KernelIdeal.S100000x256, .f32⟩ : BufTy).Contents (Elt Ideal),
      (∀ W : Valuation Cert.KernelIdeal.τ Cert.KernelIdeal.sig (Elt Ideal),
        after (List.flatten [Cert.KernelIdeal.Gen.hostOps0, Cert.KernelIdeal.Gen.hostOps0_1, Cert.KernelIdeal.Gen.hostOps0_2]) W
            (Proc.devRef .tc Cert.KernelIdeal.main_v68)
          = T (W (Proc.devRef .tc Cert.KernelIdeal.main_arg0)) (W (Proc.devRef .tc Cert.KernelIdeal.main_arg1)))
      ∧ (∀ W : Valuation Cert.ReferenceIdeal.τ Cert.ReferenceIdeal.sig (Elt Ideal),
        after Cert.ReferenceIdeal.Hosted.opsPre W (Proc.devRef .tc Cert.ReferenceIdeal.main_v68)
          = T (W (Proc.devRef .tc Cert.ReferenceIdeal.main_arg0)) (W (Proc.devRef .tc Cert.ReferenceIdeal.main_arg1))) := by
  refine ⟨?T, ?hK, ?hR⟩
  case hK =>
    intro W
    simp only [Cert.KernelIdeal.Gen.hostOps0, Cert.KernelIdeal.Gen.hostOps0_1, Cert.KernelIdeal.Gen.hostOps0_2, List.flatten_cons, List.flatten_nil,
      List.append_nil, List.cons_append, List.nil_append]
    simp (disch := decide) only [after_cons, after_nil, nullary_result', unary_result', binary_result', ternary_result', reshape_result', joined_kernel, joined_reference,
      nullary_result_ne', unary_result_ne', binary_result_ne', ternary_result_ne', reshape_result_ne', nary_result_ne']
    generalize W (Proc.devRef .tc Cert.KernelIdeal.main_arg0) = x
    generalize W (Proc.devRef .tc Cert.KernelIdeal.main_arg1) = ei
    exact rfl
  case hR =>
    intro W
    simp only [Cert.ReferenceIdeal.Hosted.opsPre]
    simp (disch := decide) only [after_cons, after_nil, nullary_result', unary_result', binary_result', ternary_result', reshape_result', joined_kernel, joined_reference,
      nullary_result_ne', unary_result_ne', binary_result_ne', ternary_result_ne', reshape_result_ne', nary_result_ne']
    exact rfl

set_option maxRecDepth 8192 in
set_option maxHeartbeats 40000000 in
/-- The kernel's host line leaves, in the one-row bias buffer, the bias array's contents re-laid as `[1, 64]`. -/
theorem bias_entry (W : Valuation Cert.KernelIdeal.τ Cert.KernelIdeal.sig (Elt Ideal)) :
    after (List.flatten [Cert.KernelIdeal.Gen.hostOps0, Cert.KernelIdeal.Gen.hostOps0_1, Cert.KernelIdeal.Gen.hostOps0_2]) W
        (Proc.devRef .tc Cert.KernelIdeal.main_v69)
      = shapeCast Cert.KernelIdeal.S1x64 (W (Proc.devRef .tc Cert.KernelIdeal.main_arg3)) Cert.KernelIdeal.Facts₀.shapeCasts_S64_S1x64 := by
  simp only [Cert.KernelIdeal.Gen.hostOps0, Cert.KernelIdeal.Gen.hostOps0_1, Cert.KernelIdeal.Gen.hostOps0_2, List.flatten_cons, List.flatten_nil,
      List.append_nil, List.cons_append, List.nil_append]
  simp (disch := decide) only [after_cons, after_nil, nullary_result', unary_result', binary_result', ternary_result', reshape_result', joined_kernel, joined_reference,
      nullary_result_ne', unary_result_ne', binary_result_ne', ternary_result_ne', reshape_result_ne', nary_result_ne']
  try rfl

end Cert.Features

end
-- ==== Proof.lean ====
/-
  The certificate: a three-hop graph propagation followed by one dense layer, the dense layer as a tiled kernel
  against the same layer as a host matrix product.

  Both programs first run the same host operations on `x` and the edge list and obtain the same joined
  `[100000, 256]` feature array `X` (one function of those two inputs: Proof/Prelude.lean). The kernel then computes
  `X · w + b` twenty row blocks at a time (Proof/KernelValue.lean: each block is rows of `X` times `w` plus the bias row,
  its bf16 rounding of the operands the identity on the extended reals, and the blocks tile the result), the
  reference by one host product and a broadcast sum (Proof/RefValue.lean). Entry `(e, q)` of either result is
  `(∑ k, X (e, k) · w (k, q)) + b q`: the same extended real, with no appeal to finiteness. The frames are the runs
  themselves (Proof/RegionBits.lean, Proof/RegionIdeal.lean, Proof/RefRun.lean): every weakly fair execution terminates,
  nothing faults, and no operation or write-back touches an argument array. The ideal pass rewrote nothing, so
  `preserves` has no conjunct.
-/
import proofs.«149920_j56908316672631_1_alg».proof.Defs
import proofs.«149920_j56908316672631_1_alg».proof.Proof.Gen.Kernel
import proofs.«149920_j56908316672631_1_alg».proof.Proof.Gen.KernelIdeal
import proofs.«149920_j56908316672631_1_alg».proof.Proof.Gen.ReferenceIdeal
import proofs.«149920_j56908316672631_1_alg».proof.Proof.Gen.Pre_finite_inputs
import proofs.«149920_j56908316672631_1_alg».proof.Proof.RegionBits
import proofs.«149920_j56908316672631_1_alg».proof.Proof.RegionIdeal
import proofs.«149920_j56908316672631_1_alg».proof.Proof.KernelValue
import proofs.«149920_j56908316672631_1_alg».proof.Proof.RefRun
import proofs.«149920_j56908316672631_1_alg».proof.Proof.RefValue
import proofs.«149920_j56908316672631_1_alg».proof.Proof.Prelude
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.StableHlo Cert.Linear

/-- The reference's run, read at its result and its arguments: the result is the closing operations' over what the
    feature-building stretch left of the launch contents; no operation writes an argument. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v72)
          = after Cert.ReferenceIdeal.Hosted.opsTail (after Cert.ReferenceIdeal.Hosted.opsPre (launchContents m c)) (Proc.devRef .tc Cert.ReferenceIdeal.main_v72)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => ⟨h c _,
      (h c _).trans ((Cert.ReferenceIdeal.Hosted.tail_arg0 _).trans (Cert.ReferenceIdeal.Hosted.pre_kept _ _ (.inl rfl))),
      (h c _).trans ((Cert.ReferenceIdeal.Hosted.tail_arg1 _).trans (Cert.ReferenceIdeal.Hosted.pre_kept _ _ (.inr (.inl rfl)))),
      (h c _).trans ((Cert.ReferenceIdeal.Hosted.tail_arg2 _).trans (Cert.ReferenceIdeal.Hosted.pre_kept _ _ (.inr (.inr (.inl rfl))))),
      (h c _).trans ((Cert.ReferenceIdeal.Hosted.tail_arg3 _).trans (Cert.ReferenceIdeal.Hosted.pre_kept _ _ (.inr (.inr (.inr rfl)))))⟩)
    (Cert.ReferenceIdeal.Hosted.run_all m ρ)

theorem frame_kernel : Cert.frame_Kernel := fun m ρ _ => Cert.Kernel.Region.frame m ρ
theorem frame_kernelIdeal : Cert.frame_KernelIdeal := fun m ρ _ => Cert.KernelIdeal.Region.frame m ρ
theorem frame_referenceIdeal : Cert.frame_ReferenceIdeal := fun m ρ _ =>
  (θ_run Cert.ReferenceIdeal.defs _ _).mono (fun _ h c => (h c).2) (reference_run m ρ)

/-- The one-row bias buffer the region is entered with holds the bias as launched: the host line's last operation re-lays
    the `[64]` bias as `[1, 64]`, which moves no element. -/
theorem bias_row (m : (ℓ : Loc Cert.KernelIdeal.nD Cert.KernelIdeal.τ Cert.KernelIdeal.sig) → Buf (Elt Ideal) ℓ) (c : Dev Cert.KernelIdeal.nD) :
    rowOf (Cert.KernelIdeal.Region.V m c Cert.KernelIdeal.main_v69)
      = m ((c.tc : Thread Cert.KernelIdeal.nD Cert.KernelIdeal.τ).loc Cert.KernelIdeal.main_arg3) := by
  have e : Cert.KernelIdeal.Region.V m c Cert.KernelIdeal.main_v69
      = shapeCast Cert.KernelIdeal.S1x64 (m ((c.tc : Thread Cert.KernelIdeal.nD Cert.KernelIdeal.τ).loc Cert.KernelIdeal.main_arg3))
          Cert.KernelIdeal.Facts₀.shapeCasts_S64_S1x64 :=
    (Cert.KernelIdeal.Region.V_eq m c _).trans (Cert.Features.bias_entry (fun b => m (c, b)))
  funext j
  obtain ⟨q, rfl⟩ : ∃ q : Fin 64, j = ValueIdx.ix1 q := ⟨j 0, ValueIdx.eq_ix1 j⟩
  rw [rowOf_apply, e]
  exact ValueIdx.shapeCast_a_1a_apply _ _ (0 : Fin 1) q

/-- The ideal pass applied no rewrite. -/
theorem preserves : Cert.preserves_Kernel_KernelIdeal := trivial

/-- Both results are rows of the common feature array times the weight plus the bias. -/
theorem algebraic : Cert.algebraic_KernelIdeal_ReferenceIdeal := by
  intro m ρ m' ρ' _ hagree
  obtain ⟨T, hK, hR⟩ := Cert.Features.features_common
  refine ⟨fun c => rowsTimesPlus
      (T (m ((c.tc : Thread Cert.KernelIdeal.nD Cert.KernelIdeal.τ).loc Cert.KernelIdeal.main_arg0))
         (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, (h c).2⟩) (Cert.KernelIdeal.Region.run_arrays m ρ)
    rw [(h c).1, Cert.KernelIdeal.Result.final3, bias_row, Cert.KernelIdeal.Region.V_main_arg2]
    exact congrArg (fun X => rowsTimesPlus X _ _) ((Cert.KernelIdeal.Region.V_eq m c _).trans (hK (fun b => m (c, b))))
  · refine (θ_run Cert.ReferenceIdeal.defs _ _).mono (fun r h c => ⟨?_, (h c).2⟩) (reference_run m' ρ')
    rw [(h c).1, Cert.ReferenceIdeal.Result.result_eq, hR,
      Cert.ReferenceIdeal.Hosted.pre_kept _ _ (.inr (.inr (.inl rfl))), Cert.ReferenceIdeal.Hosted.pre_kept _ _ (.inr (.inr (.inr rfl)))]
    show rowsTimesPlus
        (T (m' ((c.tc : Thread Cert.ReferenceIdeal.nD Cert.ReferenceIdeal.τ).loc Cert.ReferenceIdeal.main_arg0))
           (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
